-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 60
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S256x128, .f32⟩
  | .hbm, ⟨57, _⟩ => ⟨S256x128, .f32⟩
  | .hbm, ⟨58, _⟩ => ⟨S1x128, .f32⟩
  | .hbm, ⟨59, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S256x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.

  The program is four segments: a stretch of host operations, the first layer's pipelined region, a second stretch
  and the second layer's region.  From any launch memory every weakly fair execution ends, nothing faulting, with
  every buffer that outlives the regions at the contents obtained by folding the four segments over the launch
  contents.  The frame statement reads that fold at the eight arguments; read at the result buffer as well it names
  what the program returns: the second region's output array as its write-backs leave it.
-/
import proofs.«171087_j46050639348070_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_named : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«171087_j46050639348070_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.SageAffine.lean ====
/-
  A graph layer that adds a mean of neighbour features to a node's own features, read at one index on the extended reals.

  The layer is A · Wl + b + X · Wr, optionally clipped at zero: A holds one mean row per node, X the node's own
  row, b one bias row.  The entry at row r and column c is the sum over the shared axis of A(r, k) · Wl(k, c),
  plus b(c), plus the sum of X(r, k) · Wr(k, c), the three added in exactly that order.  Written over one block
  of rows (two matrix products into zero accumulators, the bias row repeated over the block) or over whole
  arrays (two `dot_general`s and a broadcast bias), the entry is the same expression: no term is moved, so
  nothing has to be finite.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«171087_j46050639348070_1_alg».proof.Proof.LibRowOps
import proofs.«171087_j46050639348070_1_alg».proof.Proof.LibDense

noncomputable section

namespace Cert.Sage

open Idealize.ShloMosaic Idealize.ShloMosaic.ValueIdx Cert.RowOps Cert.Dense

/-! ## The layer as one function of whole arrays -/

/-- A · Wl + b + X · Wr at (r, c): row r of `A` and of `X`, column c of the weights, entry c of the one-row bias. -/
def affine {M K N : Nat} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 :=
  fun i => (∑ k : Fin K, A (ix2 (i 0) k) * Wl (ix2 k (i 1))) + b (ix2 (0 : Fin 1) (i 1))
    + (∑ k : Fin K, X (ix2 (i 0) k) * Wr (ix2 k (i 1)))

theorem affine_apply {M K N : Nat} (A X : FVec Ideal ⟨2, ![M, K]⟩ .f32) (Wl Wr : FVec Ideal ⟨2, ![K, N]⟩ .f32)
    (b : FVec Ideal ⟨2, ![1, N]⟩ .f32) (r : Fin M) (c : Fin N) :
    affine A X Wl Wr b (ix2 r c)
      = (∑ k : Fin K, A (ix2 r k) * Wl (ix2 k c)) + b (ix2 (0 : Fin 1) c) + (∑ k : Fin K, X (ix2 r k) * Wr (ix2 k c)) := rfl

/-- The same clipped at zero. -/
def reluAffine {M K N : Nat} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 :=
  fun i => max (affine A X Wl Wr b i) z

theorem reluAffine_apply {M K N : Nat} (A X : FVec Ideal ⟨2, ![M, K]⟩ .f32) (Wl Wr : FVec Ideal ⟨2, ![K, N]⟩ .f32)
    (b : FVec Ideal ⟨2, ![1, N]⟩ .f32) (r : Fin M) (c : Fin N) :
    reluAffine A X Wl Wr b (ix2 r c)
      = max ((∑ k : Fin K, A (ix2 r k) * Wl (ix2 k c)) + b (ix2 (0 : Fin 1) c) + (∑ k : Fin K, X (ix2 r k) * Wr (ix2 k c))) z := rfl

/-! ## One block of rows: operands narrowed to bf16 (the identity here), two products into zero, the bias row repeated -/

section Block

variable {M K N : Nat} {d : DotDims ⟨2, ![M, K]⟩ ⟨2, ![K, N]⟩ ⟨2, ![M, N]⟩}

theorem blockAffine_apply (hd : IsPlain d) (a x : FVec Ideal ⟨2, ![M, K]⟩ .f32) (wl wr : FVec Ideal ⟨2, ![K, N]⟩ .f32)
    (b : FVec Ideal ⟨2, ![1, N]⟩ .f32) (hb : (⟨2, ![1, N]⟩ : Shape).Broadcasts ⟨2, ![M, N]⟩)
    (h16 : FTy.bits .bf16 < FTy.bits .f32) (r : Fin M) (c : Fin N) :
    addf (addf (matmul d none (truncf .bf16 a h16) (truncf .bf16 wl h16) (constant ⟨2, ![M, N]⟩ .f32 0x00000000#32))
          (broadcastTo ⟨2, ![M, N]⟩ b hb))
        (matmul d none (truncf .bf16 x h16) (truncf .bf16 wr h16) (constant ⟨2, ![M, N]⟩ .f32 0x00000000#32)) (ix2 r c)
      = (∑ k : Fin K, a (ix2 r k) * wl (ix2 k c)) + b (ix2 (0 : Fin 1) c) + (∑ k : Fin K, x (ix2 r k) * wr (ix2 k c)) := by
  rw [addf_apply, addf_apply, broadcastTo_1b_ab_apply]
  exact congrArg₂ (fun s u => s + b (ix2 (0 : Fin 1) c) + u)
    (matmul_zero_apply hd none (truncf .bf16 a h16) (truncf .bf16 wl h16) r c)
    (matmul_zero_apply hd none (truncf .bf16 x h16) (truncf .bf16 wr h16) r c)

theorem blockReluAffine_apply (hd : IsPlain d) (a x : FVec Ideal ⟨2, ![M, K]⟩ .f32) (wl wr : FVec Ideal ⟨2, ![K, N]⟩ .f32)
    (b : FVec Ideal ⟨2, ![1, N]⟩ .f32) (hb : (⟨2, ![1, N]⟩ : Shape).Broadcasts ⟨2, ![M, N]⟩)
    (h16 : FTy.bits .bf16 < FTy.bits .f32) (r : Fin M) (c : Fin N) :
    maximumf (addf (addf (matmul d none (truncf .bf16 a h16) (truncf .bf16 wl h16) (constant ⟨2, ![M, N]⟩ .f32 0x00000000#32))
          (broadcastTo ⟨2, ![M, N]⟩ b hb))
        (matmul d none (truncf .bf16 x h16) (truncf .bf16 wr h16) (constant ⟨2, ![M, N]⟩ .f32 0x00000000#32)))
      (broadcast ⟨2, ![M, N]⟩ (Scalar.ofBits (F := Ideal) .f32 0x00000000#32)) (ix2 r c)
      = max ((∑ k : Fin K, a (ix2 r k) * wl (ix2 k c)) + b (ix2 (0 : Fin 1) c) + (∑ k : Fin K, x (ix2 r k) * wr (ix2 k c))) z := by
  rw [maximumf_apply, broadcast_apply]
  exact congrArg (fun s => max s z) (blockAffine_apply hd a x wl wr b hb h16 r c)

end Block

/-! ## A block of rows is rows of the whole layer -/

section Rows

variable {Mb M K N : Nat}

/-- When a block's rows are rows T, T + 1, … of the whole arrays and the weights and the bias row are the whole
    arrays' own, the block's entry at (r, q) is the layer's entry at (T + r, q). -/
theorem affine_block (a x : FVec Ideal ⟨2, ![Mb, K]⟩ .f32) (wl wr : FVec Ideal ⟨2, ![K, N]⟩ .f32) (bb : FVec Ideal ⟨2, ![1, N]⟩ .f32)
    (A X : FVec Ideal ⟨2, ![M, K]⟩ .f32) (Wl Wr : FVec Ideal ⟨2, ![K, N]⟩ .f32) (b : FVec Ideal ⟨2, ![1, N]⟩ .f32) (T : Nat)
    (ha : ∀ (r : Fin Mb) (k : Fin K) (R : Fin M), R.val = T + r.val → a (ix2 r k) = A (ix2 R k))
    (hx : ∀ (r : Fin Mb) (k : Fin K) (R : Fin M), R.val = T + r.val → x (ix2 r k) = X (ix2 R k))
    (hwl : ∀ y, wl y = Wl y) (hwr : ∀ y, wr y = Wr y) (hb : ∀ y, bb y = b y)
    (r : Fin Mb) (q : Fin N) (R : Fin M) (hR : R.val = T + r.val) :
    (∑ k : Fin K, a (ix2 r k) * wl (ix2 k q)) + bb (ix2 (0 : Fin 1) q) + (∑ k : Fin K, x (ix2 r k) * wr (ix2 k q))
      = affine A X Wl Wr b (ix2 R q) := by
  rw [affine_apply, hb]
  refine congrArg₂ (fun s u => s + b (ix2 (0 : Fin 1) q) + u) (Finset.sum_congr rfl fun k _ => ?_)
    (Finset.sum_congr rfl fun k _ => ?_)
  · rw [ha r k R hR, hwl]
  · rw [hx r k R hR, hwr]

end Rows

/-! ## Whole arrays in the host's spelling -/

section Host

variable {M K N : Nat} {d : DotDims ⟨2, ![M, K]⟩ ⟨2, ![K, N]⟩ ⟨2, ![M, N]⟩}

/-- A · Wl, plus the bias on every row, plus X · Wr, is `affine` with the bias viewed as one row. -/
theorem hostAffine_eq (hd : IsPlain d) (A X : FVec Ideal ⟨2, ![M, K]⟩ .f32) (Wl Wr : FVec Ideal ⟨2, ![K, N]⟩ .f32)
    (B : FVec Ideal ⟨1, ![N]⟩ .f32)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wl)
            (broadcastInDim ⟨2, ![M, N]⟩ ![0, 1] h2 (broadcastInDim ⟨2, ![1, N]⟩ ![1] h1 B)))
          (Host.dotGeneral d none X Wr)
      = affine A X Wl Wr (shapeCast ⟨2, ![1, N]⟩ B hs) := by
  funext i
  obtain ⟨r, c, rfl⟩ : ∃ (r : Fin M) (c : Fin N), i = ix2 r c := ⟨i 0, i 1, eq_ix2 i⟩
  rw [affine_apply, addf_apply, addf_apply, hostRowBias_apply,
    show Host.dotGeneral d none A Wl (ix2 r c) = _ from hostDot_apply hd none .single A Wl r c,
    show Host.dotGeneral d none X Wr (ix2 r c) = _ from hostDot_apply hd none .single X Wr r c,
    shapeCast_a_1a_apply]

/-- The same clipped at zero by a maximum with a broadcast zero. -/
theorem hostReluAffine_eq (hd : IsPlain d) (A X : FVec Ideal ⟨2, ![M, K]⟩ .f32) (Wl Wr : FVec Ideal ⟨2, ![K, N]⟩ .f32)
    (B : FVec Ideal ⟨1, ![N]⟩ .f32)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral d none A Wl)
            (broadcastInDim ⟨2, ![M, N]⟩ ![0, 1] h2 (broadcastInDim ⟨2, ![1, N]⟩ ![1] h1 B)))
          (Host.dotGeneral d none X Wr))
        (broadcastInDim ⟨2, ![M, N]⟩ ![] h0 (constant (F := Ideal) ⟨0, ![]⟩ .f32 0x00000000#32))
      = reluAffine A X Wl Wr (shapeCast ⟨2, ![1, N]⟩ B hs) := by
  funext i
  rw [maximumf_apply, broadcastInDim_scalar_apply, constant_apply, hostAffine_eq hd A X Wl Wr B hs h1 h2]
  rfl

end Host

end Cert.Sage

end
-- ==== Proof.Region0.lean ====
/-
  The first layer's pipelined region, read as one function of the arrays it is entered with.

  The region walks 25 blocks of 2000 node rows.  At block t it stages rows 2000·t … 2000·t + 1999 of the mean
  array and of the node array, the whole of both weights and of the bias row, and writes back the same rows of
  the result.  The body's entry at (r, q) of a block is the layer's expression of row r of the two staged row
  blocks, so every written block is the matching rows of ONE whole-array function, the layer of the entry
  arrays; the 25 blocks tile the result, which therefore ends holding that function.
-/
import proofs.«171087_j46050639348070_1_alg».proof.Proof.Gen.KernelIdeal.Frame
import proofs.«171087_j46050639348070_1_alg».proof.Proof.SageAffine
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Sage Cert.RowOps Cert.Dense

/-- The body's two products contract the staged rows' second axis with the weights' first. -/
theorem plain : IsPlain dot_S2000x128_S128x256_S2000x256_1_0_0_1_n_n := ⟨rfl, rfl, rfl, rfl, rfl, rfl⟩

/-- The body's stored value at (r, q): the layer's expression of the loaded blocks. -/
theorem pay_apply (x0 x1 : Vec Ideal S2000x128 .f32) (x2 x4 : Vec Ideal S128x256 .f32) (x3 : Vec Ideal S1x256 .f32)
    (r : Fin 2000) (q : Fin 256) :
    k0_pay1 (F := Ideal) x0 x1 x2 x4 x3 (ix2 r q)
      = max ((∑ k : Fin 128, x0 (ix2 r k) * x2 (ix2 k q)) + x3 (ix2 (0 : Fin 1) q) + (∑ k : Fin 128, x1 (ix2 r k) * x4 (ix2 k q))) z := by
  unfold k0_pay1
  simp only [shapeCast_self]
  exact blockReluAffine_apply plain x0 x1 x2 x4 x3 _ _ r q

/-- The stored value at an index y of a block whose rows are rows T + · of whole arrays is the layer of the whole
    arrays at the index i with the same column and row T + (row of y). -/
theorem point (x0 x1 : Vec Ideal S2000x128 .f32) (x2 x4 : Vec Ideal S128x256 .f32) (x3 : Vec Ideal S1x256 .f32)
    (A X : FVec Ideal S50000x128 .f32) (Wl Wr : FVec Ideal S128x256 .f32) (b : FVec Ideal S1x256 .f32) (T : Nat)
    (ha : ∀ (r : Fin 2000) (k : Fin 128) (R : Fin 50000), R.val = T + r.val → x0 (ix2 r k) = A (ix2 R k))
    (hx : ∀ (r : Fin 2000) (k : Fin 128) (R : Fin 50000), R.val = T + r.val → x1 (ix2 r k) = X (ix2 R k))
    (hwl : ∀ y, x2 y = Wl y) (hwr : ∀ y, x4 y = Wr y) (hb : ∀ y, x3 y = b y)
    (y : S2000x256.Idx) (i : S50000x256.Idx) (hi0 : (i 0).val = T + (y 0).val) (hi1 : (i 1).val = (y 1).val) :
    k0_pay1 (F := Ideal) x0 x1 x2 x4 x3 y = reluAffine (M := 50000) (K := 128) (N := 256) A X Wl Wr b i := by
  obtain ⟨r, q, rfl⟩ : ∃ (r : Fin 2000) (q : Fin 256), y = ix2 r q := ⟨y 0, y 1, eq_ix2 y⟩
  obtain ⟨R, Q, rfl⟩ : ∃ (R : Fin 50000) (Q : Fin 256), i = ix2 R Q := ⟨i 0, i 1, eq_ix2 i⟩
  have hR : R.val = T + r.val := hi0
  obtain rfl : Q = q := Fin.ext hi1
  rw [pay_apply]
  exact congrArg (fun s => max s z) (affine_block x0 x1 x2 x4 x3 A X Wl Wr b T ha hx hwl hwr hb r Q R hR)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the result move together along the rows, one
    block per point, and never along the columns; the weights and the bias stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) < 25 :=
  (by decide +kernel : ∀ t : Fin grid0.N, _)

/-- Every block of rows of the result is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-! ## Each staged block, read off the array the region is entered with -/

theorem rowsA_apply (c : Dev nD) (t : Fin cfg0.N) (y : S2000x128.Idx) (i : S50000x128.Idx)
    (h0 : (i 0).val = win0_0.index t (0 : Fin 2) * 2000 + (y 0).val) (h1 : (i 1).val = win0_0.index t (1 : Fin 2) * 128 + (y 1).val) :
    (iblk0 V c 0 t : Vec Ideal S2000x128 .f32) y = (V c main_v22 : S50000x128.Idx → EReal) i := by
  unfold iblk0
  rw [View.read_apply]
  show V c main_v22 _ = V c main_v22 _
  congr 1
  funext a
  apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

theorem rowsX_apply (c : Dev nD) (t : Fin cfg0.N) (y : S2000x128.Idx) (i : S50000x128.Idx)
    (h0 : (i 0).val = win0_1.index t (0 : Fin 2) * 2000 + (y 0).val) (h1 : (i 1).val = win0_1.index t (1 : Fin 2) * 128 + (y 1).val) :
    (iblk0 V c 1 t : Vec Ideal S2000x128 .f32) y = (V c main_arg0 : S50000x128.Idx → EReal) i := by
  unfold iblk0
  rw [View.read_apply]
  show V c main_arg0 _ = V c main_arg0 _
  congr 1
  funext a
  apply Fin.ext
  match a with
  | ⟨0, _⟩ => show win0_1.index t (0 : Fin 2) * 2000 + 1 * (y 0).val = (i 0).val; omega
  | ⟨1, _⟩ => show win0_1.index t (1 : Fin 2) * 128 + 1 * (y 1).val = (i 1).val; omega

theorem wl_apply (c : Dev nD) (t : Fin cfg0.N) (y : S128x256.Idx)
    (h0 : win0_2.index t (0 : Fin 2) = 0) (h1 : win0_2.index t (1 : Fin 2) = 0) :
    (iblk0 V c 2 t : Vec Ideal S128x256 .f32) y = (V c main_v23 : S128x256.Idx → EReal) y := by
  unfold iblk0
  rw [View.read_apply]
  show V c main_v23 _ = V c main_v23 _
  congr 1
  funext a
  apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem bias_apply (c : Dev nD) (t : Fin cfg0.N) (y : S1x256.Idx)
    (h0 : win0_3.index t (0 : Fin 2) = 0) (h1 : win0_3.index t (1 : Fin 2) = 0) :
    (iblk0 V c 3 t : Vec Ideal S1x256 .f32) y = (V c main_v25 : S1x256.Idx → EReal) y := by
  unfold iblk0
  rw [View.read_apply]
  show V c main_v25 _ = V c main_v25 _
  congr 1
  funext a
  apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem wr_apply (c : Dev nD) (t : Fin cfg0.N) (y : S128x256.Idx)
    (h0 : win0_4.index t (0 : Fin 2) = 0) (h1 : win0_4.index t (1 : Fin 2) = 0) :
    (iblk0 V c 4 t : Vec Ideal S128x256 .f32) y = (V c main_v24 : S128x256.Idx → EReal) y := by
  unfold iblk0
  rw [View.read_apply]
  show V c main_v24 _ = V c main_v24 _
  congr 1
  funext a
  apply Fin.ext
  match a with
  | ⟨0, _⟩ => show win0_4.index t (0 : Fin 2) * 128 + 1 * (y 0).val = (y 0).val; omega
  | ⟨1, _⟩ => show win0_4.index t (1 : Fin 2) * 256 + 1 * (y 1).val = (y 1).val; omega

/-! ## What a point writes back, the cover, the array after the region -/

/-- Point t writes back rows 2000·t … of the layer of the entry arrays. -/
theorem flushed_eq (c : Dev nD) (t : Fin cfg0.N) :
    (dat0 V c).flushed 5 t = ((cfg0.win 5).blk t).view.read (Elt Ideal) (reluAffine (M := 50000) (K := 128) (N := 256) (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e51, e5b⟩ := idx_facts t
  funext j
  exact point (iblk0 V c 0 t) (iblk0 V c 1 t) (iblk0 V c 2 t) (iblk0 V c 4 t) (iblk0 V c 3 t)
    (V c main_v22) (V c main_arg0) (V c main_v23) (V c main_v24) (V c main_v25) (win0_5.index t (0 : Fin 2) * 2000)
    (fun r k R hR => rowsA_apply V c t (ix2 r k) (ix2 R k)
      (by show R.val = win0_0.index t (0 : Fin 2) * 2000 + r.val; omega)
      (by show k.val = win0_0.index t (1 : Fin 2) * 128 + k.val; omega))
    (fun r k R hR => rowsX_apply V c t (ix2 r k) (ix2 R k)
      (by show R.val = win0_1.index t (0 : Fin 2) * 2000 + r.val; omega)
      (by show k.val = win0_1.index t (1 : Fin 2) * 128 + k.val; omega))
    (fun y => wl_apply V c t y e20 e21) (fun y => wr_apply V c t y e40 e41) (fun y => bias_apply V c t y e30 e31)
    j (((cfg0.win 5).blk t).view.emb j)
    (by show win0_5.index t (0 : Fin 2) * 2000 + 1 * (j 0).val = win0_5.index t (0 : Fin 2) * 2000 + (j 0).val; omega)
    (by show win0_5.index t (1 : Fin 2) * 256 + 1 * (j 1).val = (j 1).val; omega)

/-- An index of the result is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- THE ARRAY after the region: the layer of the arrays the region was entered with. -/
theorem final (c : Dev nD) : (dat0 V c).arrAt 5 cfg0.N = (reluAffine (M := 50000) (K := 128) (N := 256) (V c main_v22) (V c main_arg0) (V c main_v23) (V c main_v24) (V c main_v25)) :=
  (dat0 V c).arrAt_eq_of_cover 5 (reluAffine (M := 50000) (K := 128) (N := 256) (V c main_v22) (V c main_arg0) (V c main_v23) (V c main_v24) (V c main_v25)) (fun t _ => flushed_eq V c t) (fun i => by
    have hi0 : (i 0).val < 50000 := (i 0).isLt
    have hi1 : (i 1).val < 256 := (i 1).isLt
    obtain ⟨t, ht⟩ := idx_onto ⟨(i 0).val / 2000, by omega⟩
    have q0 : win0_5.index t (0 : Fin 2) = (i 0).val / 2000 := congrFun ht 0
    have q1 : win0_5.index t (1 : Fin 2) = 0 := congrFun ht 1
    refine ⟨t, flush0_5 t, ?_⟩
    rw [mem_blk]
    intro a
    match a with
    | ⟨0, _⟩ => show win0_5.index t (0 : Fin 2) * 2000 ≤ (i 0).val ∧ (i 0).val < win0_5.index t (0 : Fin 2) * 2000 + 2000; omega
    | ⟨1, _⟩ => show win0_5.index t (1 : Fin 2) * 256 ≤ (i 1).val ∧ (i 1).val < win0_5.index t (1 : Fin 2) * 256 + 256; omega)

end Cert.KernelIdeal.Layer1

end
-- ==== Proof.Region1.lean ====
/-
  The second layer's pipelined region, read as one function of the arrays it is entered with.

  The region walks 25 blocks of 2000 node rows.  At block t it stages rows 2000·t … 2000·t + 1999 of the mean
  array and of the node array, the whole of both weights and of the bias row, and writes back the same rows of
  the result.  The body's entry at (r, q) of a block is the layer's expression of row r of the two staged row
  blocks, so every written block is the matching rows of ONE whole-array function, the layer of the entry
  arrays; the 25 blocks tile the result, which therefore ends holding that function.
-/
import proofs.«171087_j46050639348070_1_alg».proof.Proof.Gen.KernelIdeal.Frame
import proofs.«171087_j46050639348070_1_alg».proof.Proof.SageAffine
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Sage Cert.RowOps Cert.Dense

/-- The body's two products contract the staged rows' second axis with the weights' first. -/
theorem plain : IsPlain dot_S2000x256_S256x128_S2000x128_1_0_0_1_n_n := ⟨rfl, rfl, rfl, rfl, rfl, rfl⟩

/-- The body's stored value at (r, q): the layer's expression of the loaded blocks. -/
theorem pay_apply (x0 x1 : Vec Ideal S2000x256 .f32) (x2 x4 : Vec Ideal S256x128 .f32) (x3 : Vec Ideal S1x128 .f32)
    (r : Fin 2000) (q : Fin 128) :
    k1_pay1 (F := Ideal) x0 x1 x2 x4 x3 (ix2 r q)
      = (∑ k : Fin 256, x0 (ix2 r k) * x2 (ix2 k q)) + x3 (ix2 (0 : Fin 1) q) + (∑ k : Fin 256, x1 (ix2 r k) * x4 (ix2 k q)) := by
  unfold k1_pay1
  simp only [shapeCast_self]
  exact blockAffine_apply plain x0 x1 x2 x4 x3 _ _ r q

/-- The stored value at an index y of a block whose rows are rows T + · of whole arrays is the layer of the whole
    arrays at the index i with the same column and row T + (row of y). -/
theorem point (x0 x1 : Vec Ideal S2000x256 .f32) (x2 x4 : Vec Ideal S256x128 .f32) (x3 : Vec Ideal S1x128 .f32)
    (A X : FVec Ideal S50000x256 .f32) (Wl Wr : FVec Ideal S256x128 .f32) (b : FVec Ideal S1x128 .f32) (T : Nat)
    (ha : ∀ (r : Fin 2000) (k : Fin 256) (R : Fin 50000), R.val = T + r.val → x0 (ix2 r k) = A (ix2 R k))
    (hx : ∀ (r : Fin 2000) (k : Fin 256) (R : Fin 50000), R.val = T + r.val → x1 (ix2 r k) = X (ix2 R k))
    (hwl : ∀ y, x2 y = Wl y) (hwr : ∀ y, x4 y = Wr y) (hb : ∀ y, x3 y = b y)
    (y : S2000x128.Idx) (i : S50000x128.Idx) (hi0 : (i 0).val = T + (y 0).val) (hi1 : (i 1).val = (y 1).val) :
    k1_pay1 (F := Ideal) x0 x1 x2 x4 x3 y = affine (M := 50000) (K := 256) (N := 128) A X Wl Wr b i := by
  obtain ⟨r, q, rfl⟩ : ∃ (r : Fin 2000) (q : Fin 128), y = ix2 r q := ⟨y 0, y 1, eq_ix2 y⟩
  obtain ⟨R, Q, rfl⟩ : ∃ (R : Fin 50000) (Q : Fin 128), i = ix2 R Q := ⟨i 0, i 1, eq_ix2 i⟩
  have hR : R.val = T + r.val := hi0
  obtain rfl : Q = q := Fin.ext hi1
  rw [pay_apply]
  exact affine_block x0 x1 x2 x4 x3 A X Wl Wr b T ha hx hwl hwr hb r Q R hR

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the result move together along the rows, one
    block per point, and never along the columns; the weights and the bias stay at block (0, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) < 25 :=
  (by decide +kernel : ∀ t : Fin grid1.N, _)

/-- Every block of rows of the result is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-! ## Each staged block, read off the array the region is entered with -/

theorem rowsA_apply (c : Dev nD) (t : Fin cfg1.N) (y : S2000x256.Idx) (i : S50000x256.Idx)
    (h0 : (i 0).val = win1_0.index t (0 : Fin 2) * 2000 + (y 0).val) (h1 : (i 1).val = win1_0.index t (1 : Fin 2) * 256 + (y 1).val) :
    (iblk1 V c 0 t : Vec Ideal S2000x256 .f32) y = (V c main_v38 : S50000x256.Idx → EReal) i := by
  unfold iblk1
  rw [View.read_apply]
  show V c main_v38 _ = V c main_v38 _
  congr 1
  funext a
  apply Fin.ext
  match a with
  | ⟨0, _⟩ => show win1_0.index t (0 : Fin 2) * 2000 + 1 * (y 0).val = (i 0).val; omega
  | ⟨1, _⟩ => show win1_0.index t (1 : Fin 2) * 256 + 1 * (y 1).val = (i 1).val; omega

theorem rowsX_apply (c : Dev nD) (t : Fin cfg1.N) (y : S2000x256.Idx) (i : S50000x256.Idx)
    (h0 : (i 0).val = win1_1.index t (0 : Fin 2) * 2000 + (y 0).val) (h1 : (i 1).val = win1_1.index t (1 : Fin 2) * 256 + (y 1).val) :
    (iblk1 V c 1 t : Vec Ideal S2000x256 .f32) y = (V c main_v26 : S50000x256.Idx → EReal) i := by
  unfold iblk1
  rw [View.read_apply]
  show V c main_v26 _ = V c main_v26 _
  congr 1
  funext a
  apply Fin.ext
  match a with
  | ⟨0, _⟩ => show win1_1.index t (0 : Fin 2) * 2000 + 1 * (y 0).val = (i 0).val; omega
  | ⟨1, _⟩ => show win1_1.index t (1 : Fin 2) * 256 + 1 * (y 1).val = (i 1).val; omega

theorem wl_apply (c : Dev nD) (t : Fin cfg1.N) (y : S256x128.Idx)
    (h0 : win1_2.index t (0 : Fin 2) = 0) (h1 : win1_2.index t (1 : Fin 2) = 0) :
    (iblk1 V c 2 t : Vec Ideal S256x128 .f32) y = (V c main_v39 : S256x128.Idx → EReal) y := by
  unfold iblk1
  rw [View.read_apply]
  show V c main_v39 _ = V c main_v39 _
  congr 1
  funext a
  apply Fin.ext
  match a with
  | ⟨0, _⟩ => show win1_2.index t (0 : Fin 2) * 256 + 1 * (y 0).val = (y 0).val; omega
  | ⟨1, _⟩ => show win1_2.index t (1 : Fin 2) * 128 + 1 * (y 1).val = (y 1).val; omega

theorem bias_apply (c : Dev nD) (t : Fin cfg1.N) (y : S1x128.Idx)
    (h0 : win1_3.index t (0 : Fin 2) = 0) (h1 : win1_3.index t (1 : Fin 2) = 0) :
    (iblk1 V c 3 t : Vec Ideal S1x128 .f32) y = (V c main_v41 : S1x128.Idx → EReal) y := by
  unfold iblk1
  rw [View.read_apply]
  show V c main_v41 _ = V c main_v41 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem wr_apply (c : Dev nD) (t : Fin cfg1.N) (y : S256x128.Idx)
    (h0 : win1_4.index t (0 : Fin 2) = 0) (h1 : win1_4.index t (1 : Fin 2) = 0) :
    (iblk1 V c 4 t : Vec Ideal S256x128 .f32) y = (V c main_v40 : S256x128.Idx → EReal) y := by
  unfold iblk1
  rw [View.read_apply]
  show V c main_v40 _ = V c main_v40 _
  congr 1
  funext a
  apply Fin.ext
  match a with
  | ⟨0, _⟩ => show win1_4.index t (0 : Fin 2) * 256 + 1 * (y 0).val = (y 0).val; omega
  | ⟨1, _⟩ => show win1_4.index t (1 : Fin 2) * 128 + 1 * (y 1).val = (y 1).val; omega

/-! ## What a point writes back, the cover, the array after the region -/

/-- Point t writes back rows 2000·t … of the layer of the entry arrays. -/
theorem flushed_eq (c : Dev nD) (t : Fin cfg1.N) :
    (dat1 V c).flushed 5 t = ((cfg1.win 5).blk t).view.read (Elt Ideal) (affine (M := 50000) (K := 256) (N := 128) (V c main_v38) (V c main_v26) (V c main_v39) (V c main_v40) (V c main_v41)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  obtain ⟨e00, e01, e10, e11, e20, e21, e30, e31, e40, e41, e51, e5b⟩ := idx_facts t
  funext j
  exact point (iblk1 V c 0 t) (iblk1 V c 1 t) (iblk1 V c 2 t) (iblk1 V c 4 t) (iblk1 V c 3 t)
    (V c main_v38) (V c main_v26) (V c main_v39) (V c main_v40) (V c main_v41) (win1_5.index t (0 : Fin 2) * 2000)
    (fun r k R hR => rowsA_apply V c t (ix2 r k) (ix2 R k)
      (by show R.val = win1_0.index t (0 : Fin 2) * 2000 + r.val; omega)
      (by show k.val = win1_0.index t (1 : Fin 2) * 256 + k.val; omega))
    (fun r k R hR => rowsX_apply V c t (ix2 r k) (ix2 R k)
      (by show R.val = win1_1.index t (0 : Fin 2) * 2000 + r.val; omega)
      (by show k.val = win1_1.index t (1 : Fin 2) * 256 + k.val; omega))
    (fun y => wl_apply V c t y e20 e21) (fun y => wr_apply V c t y e40 e41) (fun y => bias_apply V c t y e30 e31)
    j (((cfg1.win 5).blk t).view.emb j)
    (by show win1_5.index t (0 : Fin 2) * 2000 + 1 * (j 0).val = win1_5.index t (0 : Fin 2) * 2000 + (j 0).val; omega)
    (by show win1_5.index t (1 : Fin 2) * 128 + 1 * (j 1).val = (j 1).val; omega)

/-- An index of the result is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- THE ARRAY after the region: the layer of the arrays the region was entered with. -/
theorem final (c : Dev nD) : (dat1 V c).arrAt 5 cfg1.N = (affine (M := 50000) (K := 256) (N := 128) (V c main_v38) (V c main_v26) (V c main_v39) (V c main_v40) (V c main_v41)) :=
  (dat1 V c).arrAt_eq_of_cover 5 (affine (M := 50000) (K := 256) (N := 128) (V c main_v38) (V c main_v26) (V c main_v39) (V c main_v40) (V c main_v41)) (fun t _ => flushed_eq V c t) (fun i => by
    have hi0 : (i 0).val < 50000 := (i 0).isLt
    have hi1 : (i 1).val < 128 := (i 1).isLt
    obtain ⟨t, ht⟩ := idx_onto ⟨(i 0).val / 2000, by omega⟩
    have q0 : win1_5.index t (0 : Fin 2) = (i 0).val / 2000 := congrFun ht 0
    have q1 : win1_5.index t (1 : Fin 2) = 0 := congrFun ht 1
    refine ⟨t, flush1_5 t, ?_⟩
    rw [mem_blk]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega)

end Cert.KernelIdeal.Layer2

end
-- ==== Proof.KernelWhole.lean ====
/-
  What the idealized kernel program returns, as one function of its arguments.

  Between the launch and the return the program folds four segments over its buffers.  The first stretch of host
  operations splits the edge list into source and destination node numbers, counts each node's incoming edges
  (at least 1), sums the source rows of the features into their destination rows and divides by the counts: the
  mean of each node's in-neighbours.  The first region is the layer relu(mean · Wl + b + x · Wr) of that mean and
  the features.  The second stretch takes the same mean of the hidden rows, and the second region is the layer
  mean · Wl + b + h · Wr without the clip.  Each region's output array ends at the layer of the arrays it was
  entered with, and each stretch's results are its operations' terms of what the segment before left.
-/
import proofs.«171087_j46050639348070_1_alg».proof.Proof.Region0
import proofs.«171087_j46050639348070_1_alg».proof.Proof.Region1
import Idealize.ShloMosaic.Lib.StableHlo.Run

noncomputable section

namespace Cert.KernelIdeal.Whole

open Cert.KernelIdeal Cert.KernelIdeal.Gen Cert.Sage
open Idealize.ShloMosaic Idealize.ShloMosaic.TcCoe Idealize.SL.Sem Idealize.ShloMosaic.StableHlo

/-! ## The host operations the two layers share, as functions -/

/-- The edges' source node numbers: row 0 of the edge list. -/
def srcOf (ei : (⟨S2x800000, .i32⟩ : BufTy).Contents (Elt Ideal)) : (⟨S800000, .i32⟩ : BufTy).Contents (Elt Ideal) :=
  shapeCast S800000 (extractStridedSlice S1x800000 ![0, 0] ei Facts₀.slices_S2x800000_S1x800000_0_0) Facts₀.shapeCasts_S1x800000_S800000

/-- The edges' destination node numbers: row 1 of the edge list. -/
def dstOf (ei : (⟨S2x800000, .i32⟩ : BufTy).Contents (Elt Ideal)) : (⟨S800000, .i32⟩ : BufTy).Contents (Elt Ideal) :=
  shapeCast S800000 (extractStridedSlice S1x800000 ![1, 0] ei Facts₀.slices_S2x800000_S1x800000_1_0) Facts₀.shapeCasts_S1x800000_S800000

/-- Node numbers as a gather's start indices: a negative number counts from the end. -/
def wrap (src : (⟨S800000, .i32⟩ : BufTy).Contents (Elt Ideal)) : (⟨S800000x1, .i32⟩ : BufTy).Contents (Elt Ideal) :=
  broadcastInDim S800000x1 ![0] Facts₀.bcast_S800000_S800000x1_0
    (select (cmpi .slt src (broadcastInDim S800000 ![] Facts₀.bcast_S_S800000 (constantI S_ 32 0#32)))
      (addi src (broadcastInDim S800000 ![] Facts₀.bcast_S_S800000 (constantI S_ 32 50000#32))) src)

/-- Node numbers as a scatter's index column. -/
def col (dst : (⟨S800000, .i32⟩ : BufTy).Contents (Elt Ideal)) : (⟨S800000x1, .i32⟩ : BufTy).Contents (Elt Ideal) :=
  broadcastInDim S800000x1 ![0] Facts₀.bcast_S800000_S800000x1_0 dst

/-- Each node's number of incoming edges, at least 1, as a column. -/
def count (dst : (⟨S800000, .i32⟩ : BufTy).Contents (Elt Ideal)) : (⟨S50000x1, .f32⟩ : BufTy).Contents (Elt Ideal) :=
  broadcastInDim S50000x1 ![0] Facts₀.bcast_S50000_S50000x1_0
    (maximumf (Host.scatterAdd scatter_S50000_S800000x1_S800000_n_0_0_1
        (broadcastInDim S50000 ![] Facts₀.bcast_S_S50000 (constant (F := Ideal) S_ .f32 0x00000000#32)) (col dst)
        (broadcastInDim S800000 ![] Facts₀.bcast_S_S800000 (constant (F := Ideal) S_ .f32 0x3F800000#32)))
      (broadcastInDim S50000 ![] Facts₀.bcast_S_S50000 (constant (F := Ideal) S_ .f32 0x3F800000#32)))

/-- The mean of each node's in-neighbours' rows, 128 wide. -/
def mean1 (x : (⟨S50000x128, .f32⟩ : BufTy).Contents (Elt Ideal)) (src dst : (⟨S800000, .i32⟩ : BufTy).Contents (Elt Ideal))
    (cnt : (⟨S50000x1, .f32⟩ : BufTy).Contents (Elt Ideal)) : (⟨S50000x128, .f32⟩ : BufTy).Contents (Elt Ideal) :=
  Host.divf (Host.scatterAdd scatter_S50000x128_S800000x1_S800000x128_1_0_0_1
      (broadcastInDim S50000x128 ![] Facts₀.bcast_S_S50000x128 (constant (F := Ideal) S_ .f32 0x00000000#32)) (col dst)
      (Host.gather gather_S50000x128_S800000x1_S800000x128_1_0_n_n_0_1_1128 x (wrap src)))
    (broadcastInDim S50000x128 ![0, 1] Facts₀.bcast_S50000x1_S50000x128_0_1 cnt)

/-- The same mean of rows 256 wide. -/
def mean2 (h : (⟨S50000x256, .f32⟩ : BufTy).Contents (Elt Ideal)) (src dst : (⟨S800000, .i32⟩ : BufTy).Contents (Elt Ideal))
    (cnt : (⟨S50000x1, .f32⟩ : BufTy).Contents (Elt Ideal)) : (⟨S50000x256, .f32⟩ : BufTy).Contents (Elt Ideal) :=
  Host.divf (Host.scatterAdd scatter_S50000x256_S800000x1_S800000x256_1_0_0_1
      (broadcastInDim S50000x256 ![] Facts₀.bcast_S_S50000x256 (constant (F := Ideal) S_ .f32 0x00000000#32)) (col dst)
      (Host.gather gather_S50000x256_S800000x1_S800000x256_1_0_n_n_0_1_1256 h (wrap src)))
    (broadcastInDim S50000x256 ![0, 1] Facts₀.bcast_S50000x1_S50000x256_0_1 cnt)

/-- The hidden rows: the first layer of the features and their neighbour mean. -/
def hidden (x : (⟨S50000x128, .f32⟩ : BufTy).Contents (Elt Ideal)) (ei : (⟨S2x800000, .i32⟩ : BufTy).Contents (Elt Ideal))
    (w1l : (⟨S256x128, .f32⟩ : BufTy).Contents (Elt Ideal)) (b1 : (⟨S256, .f32⟩ : BufTy).Contents (Elt Ideal))
    (w1r : (⟨S256x128, .f32⟩ : BufTy).Contents (Elt Ideal)) : (⟨S50000x256, .f32⟩ : BufTy).Contents (Elt Ideal) :=
  reluAffine (M := 50000) (K := 128) (N := 256) (mean1 x (srcOf ei) (dstOf ei) (count (dstOf ei))) x
    (transpose S128x256 [1, 0] w1l Facts₀.transposes_S256x128_S128x256_1_0)
    (transpose S128x256 [1, 0] w1r Facts₀.transposes_S256x128_S128x256_1_0)
    (shapeCast S1x256 b1 Facts₀.shapeCasts_S256_S1x256)

/-- The result: the second layer of the hidden rows and their neighbour mean. -/
def output (x : (⟨S50000x128, .f32⟩ : BufTy).Contents (Elt Ideal)) (ei : (⟨S2x800000, .i32⟩ : BufTy).Contents (Elt Ideal))
    (w1l : (⟨S256x128, .f32⟩ : BufTy).Contents (Elt Ideal)) (b1 : (⟨S256, .f32⟩ : BufTy).Contents (Elt Ideal))
    (w1r : (⟨S256x128, .f32⟩ : BufTy).Contents (Elt Ideal))
    (w2l : (⟨S128x256, .f32⟩ : BufTy).Contents (Elt Ideal)) (b2 : (⟨S128, .f32⟩ : BufTy).Contents (Elt Ideal))
    (w2r : (⟨S128x256, .f32⟩ : BufTy).Contents (Elt Ideal)) : (⟨S50000x128, .f32⟩ : BufTy).Contents (Elt Ideal) :=
  affine (M := 50000) (K := 256) (N := 128)
    (mean2 (hidden x ei w1l b1 w1r) (srcOf ei) (dstOf ei) (count (dstOf ei))) (hidden x ei w1l b1 w1r)
    (transpose S256x128 [1, 0] w2l Facts₀.transposes_S128x256_S256x128_1_0)
    (transpose S256x128 [1, 0] w2r Facts₀.transposes_S128x256_S256x128_1_0)
    (shapeCast S1x128 b2 Facts₀.shapeCasts_S128_S1x128)

variable (m : (ℓ : Loc nD τ sig) → Buf (Elt Ideal) ℓ) (ρ : Dev nD → PrngReg) (c : Dev nD)

/-! ## The first stretch, from the launch contents -/

theorem V1_v1 : W1 m ρ c (Proc.devRef .tc main_v1) = srcOf (m ((c : Thread nD τ).loc main_arg1)) := by
  show StableHlo.after hostOps0 (W0 m ρ c) (Proc.devRef .tc main_v1) = _
  after_results_simp <;> rfl

theorem V1_v3 : W1 m ρ c (Proc.devRef .tc main_v3) = dstOf (m ((c : Thread nD τ).loc main_arg1)) := by
  show StableHlo.after hostOps0 (W0 m ρ c) (Proc.devRef .tc main_v3) = _
  after_results_simp <;> rfl

theorem V1_v10 : W1 m ρ c (Proc.devRef .tc main_v10) = count (dstOf (m ((c : Thread nD τ).loc main_arg1))) := by
  show StableHlo.after hostOps0 (W0 m ρ c) (Proc.devRef .tc main_v10) = _
  after_results_simp <;> rfl

theorem V1_v22 : V1 m ρ c main_v22 = mean1 (m ((c : Thread nD τ).loc main_arg0)) (srcOf (m ((c : Thread nD τ).loc main_arg1)))
    (dstOf (m ((c : Thread nD τ).loc main_arg1))) (count (dstOf (m ((c : Thread nD τ).loc main_arg1)))) := by
  show StableHlo.after hostOps0 (W0 m ρ c) (Proc.devRef .tc main_v22) = _
  after_results_simp <;> rfl

theorem V1_arg0 : V1 m ρ c main_arg0 = m ((c : Thread nD τ).loc main_arg0) := by
  show StableHlo.after hostOps0 (W0 m ρ c) (Proc.devRef .tc main_arg0) = _
  after_results_simp <;> rfl

theorem V1_v23 : V1 m ρ c main_v23 = transpose S128x256 [1, 0] (m ((c : Thread nD τ).loc main_arg2)) Facts₀.transposes_S256x128_S128x256_1_0 := by
  show StableHlo.after hostOps0 (W0 m ρ c) (Proc.devRef .tc main_v23) = _
  after_results_simp <;> rfl

theorem V1_v24 : V1 m ρ c main_v24 = transpose S128x256 [1, 0] (m ((c : Thread nD τ).loc main_arg4)) Facts₀.transposes_S256x128_S128x256_1_0 := by
  show StableHlo.after hostOps0 (W0 m ρ c) (Proc.devRef .tc main_v24) = _
  after_results_simp <;> rfl

theorem V1_v25 : V1 m ρ c main_v25 = shapeCast S1x256 (m ((c : Thread nD τ).loc main_arg3)) Facts₀.shapeCasts_S256_S1x256 := by
  show StableHlo.after hostOps0 (W0 m ρ c) (Proc.devRef .tc main_v25) = _
  after_results_simp <;> rfl

theorem V1_arg5 : W1 m ρ c (Proc.devRef .tc main_arg5) = m ((c : Thread nD τ).loc main_arg5) := by
  show StableHlo.after hostOps0 (W0 m ρ c) (Proc.devRef .tc main_arg5) = _
  after_results_simp <;> rfl

theorem V1_arg6 : W1 m ρ c (Proc.devRef .tc main_arg6) = m ((c : Thread nD τ).loc main_arg6) := by
  show StableHlo.after hostOps0 (W0 m ρ c) (Proc.devRef .tc main_arg6) = _
  after_results_simp <;> rfl

theorem V1_arg7 : W1 m ρ c (Proc.devRef .tc main_arg7) = m ((c : Thread nD τ).loc main_arg7) := by
  show StableHlo.after hostOps0 (W0 m ρ c) (Proc.devRef .tc main_arg7) = _
  after_results_simp <;> rfl

/-! ## The first region: its output at the layer of its entry arrays, every other buffer as entered -/

theorem W2_v26 : W2 m ρ c (Proc.devRef .tc main_v26) = hidden (m ((c : Thread nD τ).loc main_arg0)) (m ((c : Thread nD τ).loc main_arg1))
    (m ((c : Thread nD τ).loc main_arg2)) (m ((c : Thread nD τ).loc main_arg3)) (m ((c : Thread nD τ).loc main_arg4)) := by
  refine ((W2_arr m ρ c 5).trans (Layer1.final (V1 m ρ) c)).trans ?_
  rw [V1_v22, V1_arg0, V1_v23, V1_v24, V1_v25]
  rfl

theorem W2_v1 : W2 m ρ c (Proc.devRef .tc main_v1) = srcOf (m ((c : Thread nD τ).loc main_arg1)) :=
  (W2_of_ne m ρ c main_v1 (by decide)).trans (V1_v1 m ρ c)
theorem W2_v3 : W2 m ρ c (Proc.devRef .tc main_v3) = dstOf (m ((c : Thread nD τ).loc main_arg1)) :=
  (W2_of_ne m ρ c main_v3 (by decide)).trans (V1_v3 m ρ c)
theorem W2_v10 : W2 m ρ c (Proc.devRef .tc main_v10) = count (dstOf (m ((c : Thread nD τ).loc main_arg1))) :=
  (W2_of_ne m ρ c main_v10 (by decide)).trans (V1_v10 m ρ c)
theorem W2_arg5 : W2 m ρ c (Proc.devRef .tc main_arg5) = m ((c : Thread nD τ).loc main_arg5) :=
  (W2_of_ne m ρ c main_arg5 (by decide)).trans (V1_arg5 m ρ c)
theorem W2_arg6 : W2 m ρ c (Proc.devRef .tc main_arg6) = m ((c : Thread nD τ).loc main_arg6) :=
  (W2_of_ne m ρ c main_arg6 (by decide)).trans (V1_arg6 m ρ c)
theorem W2_arg7 : W2 m ρ c (Proc.devRef .tc main_arg7) = m ((c : Thread nD τ).loc main_arg7) :=
  (W2_of_ne m ρ c main_arg7 (by decide)).trans (V1_arg7 m ρ c)

/-! ## The second stretch, from what the first region left -/

theorem V3_v38 : V3 m ρ c main_v38 = mean2 (W2 m ρ c (Proc.devRef .tc main_v26)) (W2 m ρ c (Proc.devRef .tc main_v1))
    (W2 m ρ c (Proc.devRef .tc main_v3)) (W2 m ρ c (Proc.devRef .tc main_v10)) := by
  show StableHlo.after hostOps1 (W2 m ρ c) (Proc.devRef .tc main_v38) = _
  after_results_simp <;> rfl

theorem V3_v26 : V3 m ρ c main_v26 = W2 m ρ c (Proc.devRef .tc main_v26) := by
  show StableHlo.after hostOps1 (W2 m ρ c) (Proc.devRef .tc main_v26) = _
  after_results_simp <;> rfl

theorem V3_v39 : V3 m ρ c main_v39 = transpose S256x128 [1, 0] (W2 m ρ c (Proc.devRef .tc main_arg5)) Facts₀.transposes_S128x256_S256x128_1_0 := by
  show StableHlo.after hostOps1 (W2 m ρ c) (Proc.devRef .tc main_v39) = _
  after_results_simp <;> rfl

theorem V3_v40 : V3 m ρ c main_v40 = transpose S256x128 [1, 0] (W2 m ρ c (Proc.devRef .tc main_arg7)) Facts₀.transposes_S128x256_S256x128_1_0 := by
  show StableHlo.after hostOps1 (W2 m ρ c) (Proc.devRef .tc main_v40) = _
  after_results_simp <;> rfl

theorem V3_v41 : V3 m ρ c main_v41 = shapeCast S1x128 (W2 m ρ c (Proc.devRef .tc main_arg6)) Facts₀.shapeCasts_S128_S1x128 := by
  show StableHlo.after hostOps1 (W2 m ρ c) (Proc.devRef .tc main_v41) = _
  after_results_simp <;> rfl

/-! ## The second region: the result -/

/-- The last boundary's contents at the result buffer: the two layers of the launch contents of the arguments. -/
theorem result_eq : W4 m ρ c (Proc.devRef .tc main_v42) = output (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine ((W4_arr m ρ c 5).trans (Layer2.final (V3 m ρ) c)).trans ?_
  rw [V3_v38, V3_v26, V3_v39, V3_v40, V3_v41, W2_v26, W2_v1, W2_v3, W2_v10, W2_arg5, W2_arg6, W2_arg7]
  rfl

end Cert.KernelIdeal.Whole

end
-- ==== Proof.RefWhole.lean ====
/-
  What the idealized reference returns, as the same function of its arguments as the kernel program's.

  The reference's result is one composed term of its host operations: the neighbour mean of the features, the first
  layer in the host's spelling (two `dot_general`s, the bias broadcast over the rows, a maximum with a broadcast
  zero), the neighbour mean of the hidden rows and the second layer without the clip.  Each layer in the host's
  spelling is the layer read index by index, and the means are the kernel program's own host operations on the same
  values, so the term is the kernel program's result function of the arguments.
-/
import proofs.«171087_j46050639348070_1_alg».proof.Proof.Gen.ReferenceIdeal.Run
import proofs.«171087_j46050639348070_1_alg».proof.Proof.SageAffine
import proofs.«171087_j46050639348070_1_alg».proof.Proof.KernelWhole

noncomputable section

namespace Cert.ReferenceIdeal.Whole

open Cert.ReferenceIdeal Cert.ReferenceIdeal.Gen Cert.ReferenceIdeal.Value Cert.Sage Cert.RowOps
open Idealize.ShloMosaic Idealize.ShloMosaic.TcCoe Idealize.SL.Sem

/-- The reference's two products contract the rows' second axis with the transposed weights' first. -/
theorem plain1 : IsPlain dot_S50000x128_S128x256_S50000x256_1_0_0_1_n_n := ⟨rfl, rfl, rfl, rfl, rfl, rfl⟩
theorem plain2 : IsPlain dot_S50000x256_S256x128_S50000x128_1_0_0_1_n_n := ⟨rfl, rfl, rfl, rfl, rfl, rfl⟩

/-- The reference's result term is the kernel program's result function of the reference's arguments. -/
theorem result_eq (m : (ℓ : Loc nD τ sig) → Buf (Elt Ideal) ℓ) (c : Dev nD) :
    res_main_v58 (F := Ideal) m c = Cert.KernelIdeal.Whole.output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold res_main_v58
  rw [hostReluAffine_eq plain1 _ _ _ _ _ Cert.KernelIdeal.Facts₀.shapeCasts_S256_S1x256,
    hostAffine_eq plain2 _ _ _ _ _ Cert.KernelIdeal.Facts₀.shapeCasts_S128_S1x128]
  rfl

end Cert.ReferenceIdeal.Whole

end
-- ==== Proof.lean ====
/-
  A two-layer graph network that averages each node's in-neighbours: the tiled kernel program against its reference.

  Both programs compute, for 50000 nodes and 800000 edges, h = relu(mean(x) · W1lᵀ + b1 + x · W1rᵀ) and then
  mean(h) · W2lᵀ + b2 + h · W2rᵀ, where mean(v) sums the rows of v at each edge's source into the edge's
  destination and divides every row by max(number of incoming edges, 1).  The kernel program computes the means
  with host operations and each layer in a pipelined region over 25 blocks of 2000 rows, its operands narrowed
  to bf16 (the identity on extended reals); the reference computes everything with host operations on whole arrays.

  Frames: the two kernel programs' are generated whole; the reference's is its generated run with the result dropped.
  The idealization rewrote nothing, so nothing is left to preserve.  Equal results: each region's output array
  ends at the layer of the arrays it was entered with (row r of a block is row 2000·t + r of the whole layer, and
  the blocks tile the output), the host stretches are the reference's own operations on the same values, and the
  host's spelling of a layer (two `dot_general`s, a broadcast bias, a maximum with a broadcast zero) is the same
  expression index by index, its three summands in the same order.  No summand is moved, so finiteness of the
  inputs is never used.
-/
import proofs.«171087_j46050639348070_1_alg».proof.Defs
import proofs.«171087_j46050639348070_1_alg».proof.Proof.Gen.Kernel
import proofs.«171087_j46050639348070_1_alg».proof.Proof.Gen.Kernel.Skeleton
import proofs.«171087_j46050639348070_1_alg».proof.Proof.Gen.Kernel.Launch
import proofs.«171087_j46050639348070_1_alg».proof.Proof.Gen.Kernel.Points
import proofs.«171087_j46050639348070_1_alg».proof.Proof.Gen.Kernel.Frame
import proofs.«171087_j46050639348070_1_alg».proof.Proof.Gen.KernelIdeal
import proofs.«171087_j46050639348070_1_alg».proof.Proof.Gen.KernelIdeal.Skeleton
import proofs.«171087_j46050639348070_1_alg».proof.Proof.Gen.KernelIdeal.Launch
import proofs.«171087_j46050639348070_1_alg».proof.Proof.Gen.KernelIdeal.Points
import proofs.«171087_j46050639348070_1_alg».proof.Proof.Gen.KernelIdeal.Frame
import proofs.«171087_j46050639348070_1_alg».proof.Proof.Gen.ReferenceIdeal
import proofs.«171087_j46050639348070_1_alg».proof.Proof.Gen.Pre_finite_inputs
import proofs.«171087_j46050639348070_1_alg».proof.Proof.Gen.ReferenceIdeal.Run
import proofs.«171087_j46050639348070_1_alg».proof.Proof.KernelRun
import proofs.«171087_j46050639348070_1_alg».proof.Proof.KernelWhole
import proofs.«171087_j46050639348070_1_alg».proof.Proof.RefWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two-layer function of their (agreeing) arguments in the result buffer. -/
theorem algebraic : Cert.algebraic_KernelIdeal_ReferenceIdeal := by
  intro m ρ m' ρ' _ hagree
  refine ⟨fun c => Cert.KernelIdeal.Whole.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Whole.result_eq m' c, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
